-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S100000x1 : Shape := ⟨2, ![100000, 1]⟩
abbrev S4000x1 : Shape := ⟨2, ![4000, 1]⟩
abbrev S1x128 : Shape := ⟨2, ![1, 128]⟩
abbrev S4000 : Shape := ⟨1, ![4000]⟩
abbrev S1x1 : Shape := ⟨2, ![1, 1]⟩

abbrev nBuf : Space → Nat
  | .hbm => 88
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S128, .f32⟩
  | .hbm, ⟨68, _⟩ => ⟨S100000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x1, .f32⟩
  | .hbm, ⟨78, _⟩ => ⟨S1700000x1, .f32⟩
  | .hbm, ⟨79, _⟩ => ⟨S1700000x1, .f32⟩
  | .hbm, ⟨80, _⟩ => ⟨S_, .f32⟩
  | .hbm, ⟨81, _⟩ => ⟨S100000x1, .f32⟩
  | .hbm, ⟨82, _⟩ => ⟨S1700000x1, .i32⟩
  | .hbm, ⟨83, _⟩ => ⟨S100000x1, .f32⟩
  | .hbm, ⟨84, _⟩ => ⟨S1x1, .f32⟩
  | .hbm, ⟨85, _⟩ => ⟨S100000x1, .f32⟩
  | .hbm, ⟨86, _⟩ => ⟨S100000x1, .f32⟩
  | .hbm, ⟨87, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S128, .f32⟩
  | .local _ .vmem, ⟨9, _⟩ => ⟨S4000x1, .f32⟩
  | .local _ .vmem, ⟨10, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128x1_S128 : S128x1.ShapeCasts S128
  shapeCasts_S4000x128_S4000x128 : S4000x128.ShapeCasts S4000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x1, .f32⟩
  | .hbm, ⟨82, _⟩ => ⟨S1700000x1, .f32⟩
  | .hbm, ⟨83, _⟩ => ⟨S1700000x1, .f32⟩
  | .hbm, ⟨84, _⟩ => ⟨S_, .f32⟩
  | .hbm, ⟨85, _⟩ => ⟨S100000x1, .f32⟩
  | .hbm, ⟨86, _⟩ => ⟨S1700000x1, .i32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.GcnSpec.lean ====
/-
  A two-layer graph convolution over N = 100000 nodes and E = 1600000 edges, with a self loop added at every node.

  The edge list gives source and destination endpoints; with the self loops appended both lists have E + N entries.
  A node's degree is the number of entries of the destination list equal to it, `invSqrtDeg` is deg^(-1/2) (zero where
  the degree is zero), and the weight of edge j is invSqrtDeg(src j) · invSqrtDeg(dst j).  A layer's aggregation sends
  the row of a node-feature array found at src j, scaled by the weight of j, to row dst j, and sums what arrives.

  The whole network is
      out = aggregate1 ( relu( aggregate128 (x · W1) + b1 ) · W2 ) + b2 .
  This module names these pieces as functions of the argument arrays, each exactly the composite of host operations
  that both programs apply, so that the comparison of the two programs never has to open a gather or a scatter:
  it only has to show that the two dense stages — x · W1, and relu(a + b1) · W2 — are the same sums on both sides.
-/
import proofs.«179904_j90099823935520_2_alg».proof.Proof.Gen.KernelIdeal
import Idealize.ShloMosaic.PureOps.Ideal
import Idealize.ShloMosaic.Lib.ValueIdx

noncomputable section

namespace Cert.Gcn

open Cert.KernelIdeal Cert.KernelIdeal.Facts₀ Cert.KernelIdeal.Facts Idealize.ShloMosaic

/-- An integer array of the given shape (edge endpoints). -/
abbrev IArr (s : Shape) : Type := IVec s 32
/-- An array of extended reals of the given shape. -/
abbrev FArr (s : Shape) : Type := FVec Ideal s .f32

/-- Source endpoints: row 0 of the edge list, then the self loops 0, 1, …, N − 1. -/
def srcs (e : IArr S2x1600000) : IArr S1700000 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Destination endpoints: row 1 of the edge list, then the self loops. -/
def dsts (e : IArr S2x1600000) : IArr S1700000 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- An endpoint list as a column of scatter indices. -/
def col (v : IArr S1700000) : IArr S1700000x1 :=
  broadcastInDim S1700000x1 ![0] bcast_S1700000_S1700000x1_0 v

/-- An endpoint list as a column of gather indices: a negative entry v is read as v + N. -/
def wrapCol (v : IArr S1700000) : IArr S1700000x1 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree of every node: a one summed at each destination endpoint. -/
def degree (e : IArr S2x1600000) : FArr S100000 :=
  Host.scatterAdd (F := Ideal) (φ := .f32) scatter_S100000_S1700000x1_S1700000_n_0_0_1
    (broadcastInDim S100000 ![] bcast_S_S100000 (constant (F := Ideal) S_ .f32 0x00000000#32))
    (col (dsts e))
    (broadcastInDim S1700000 ![] bcast_S_S1700000 (constant (F := Ideal) S_ .f32 0x3F800000#32))

/-- deg^(-1/2) where the degree is positive, zero elsewhere. -/
def invSqrtDeg (e : IArr S2x1600000) : FArr S100000 :=
  select (cmpf (F := Ideal) (φ := .f32) .ogt (degree e) (broadcastInDim S100000 ![] bcast_S_S100000 (constant (F := Ideal) S_ .f32 0x00000000#32)))
    (Host.rsqrt (F := Ideal) (φ := .f32) (maximumf (F := Ideal) (φ := .f32) (degree e) (broadcastInDim S100000 ![] bcast_S_S100000 (constant (F := Ideal) S_ .f32 0x3F800000#32))))
    (broadcastInDim S100000 ![] bcast_S_S100000 (id (constant (F := Ideal) S_ .f32 0x00000000#32)))

/-- The weight of every edge: invSqrtDeg at its source times invSqrtDeg at its destination. -/
def edgeWeight (e : IArr S2x1600000) : FArr S1700000 :=
  mulf (F := Ideal) (φ := .f32)
    (Host.gather (α := Ideal .f32) gather_S100000_S1700000x1_S1700000_n_0_n_n_0_1_1 (invSqrtDeg e) (wrapCol (srcs e)))
    (Host.gather (α := Ideal .f32) gather_S100000_S1700000x1_S1700000_n_0_n_n_0_1_1 (invSqrtDeg e) (wrapCol (dsts e)))

/-- First layer's aggregation of 128-wide node features h: row dst j receives (row src j of h) · weight j, summed. -/
def aggregate128 (e : IArr S2x1600000) (h : FArr S100000x128) : FArr S100000x128 :=
  Host.scatterAdd (F := Ideal) (φ := .f32) scatter_S100000x128_S1700000x1_S1700000x128_1_0_0_1
    (broadcastInDim S100000x128 ![] bcast_S_S100000x128 (constant (F := Ideal) S_ .f32 0x00000000#32))
    (col (dsts e))
    (mulf (F := Ideal) (φ := .f32)
      (Host.gather (α := Ideal .f32) gather_S100000x128_S1700000x1_S1700000x128_1_0_n_n_0_1_1128 h (wrapCol (srcs e)))
      (broadcastInDim S1700000x128 ![0, 1] bcast_S1700000x1_S1700000x128_0_1
        (broadcastInDim S1700000x1 ![0] bcast_S1700000_S1700000x1_0 (edgeWeight e))))

/-- Second layer's aggregation of one-wide node features h, plus the bias b2, as a vector over the nodes. -/
def aggregate1 (e : IArr S2x1600000) (h : FArr S100000x1) (b2 : FArr S1) : FArr S100000 :=
  shapeCast _
    (addf (F := Ideal) (φ := .f32)
      (Host.scatterAdd (F := Ideal) (φ := .f32) scatter_S100000x1_S1700000x1_S1700000x1_1_0_0_1
        (broadcastInDim S100000x1 ![] bcast_S_S100000x1 (constant (F := Ideal) S_ .f32 0x00000000#32))
        (col (dsts e))
        (mulf (F := Ideal) (φ := .f32)
          (Host.gather (α := Ideal .f32) gather_S100000x1_S1700000x1_S1700000x1_1_0_n_n_0_1_11 h (wrapCol (srcs e)))
          (broadcastInDim S1700000x1 ![0] bcast_S1700000_S1700000x1_0 (edgeWeight e))))
      (broadcastInDim S100000x1 ![0, 1] bcast_S1x1_S100000x1_0_1 (broadcastInDim S1x1 ![1] bcast_S1_S1x1_1 b2)))
    shapeCasts_S100000x1_S100000

open ValueIdx in
/-- The dense product x · W: entry (n, j) is the sum over k of x(n, k) · W(k, j). -/
def denseProduct (x : FArr S100000x128) (w : FArr S128x128) : FArr S100000x128 :=
  fun i => ∑ k : Fin 128, x (ix2 (i 0) k) * w (ix2 k (i 1))

open ValueIdx in
/-- relu(a + b) contracted with the column W2: entry (n, 0) is the sum over d of max(a(n, d) + b(d), 0) · W2(d). -/
def reluProject (a : FArr S100000x128) (b : FArr S128) (w2 : FArr S128) : FArr S100000x1 :=
  fun i => ∑ d : Fin 128, max (a (ix2 (i 0) d) + b (ix1 d)) (Ideal.ofBits .f32 0x00000000#32) * w2 (ix1 d)

/-- The whole network as one function of the six argument arrays. -/
def network (x : FArr S100000x128) (e : IArr S2x1600000) (w1 : FArr S128x128) (b1 : FArr S128) (w2 : FArr S128) (b2 : FArr S1) :
    FArr S100000 :=
  aggregate1 e (reluProject (aggregate128 e (denseProduct x w1)) b1 w2) b2

end Cert.Gcn

end
-- ==== Proof.KernelRun.lean ====
/-
  The idealized kernel's run with its result named.

  The program is seven segments: three stretches of host operations, region 1 (the linear kernel), a stretch, region 2
  (bias, relu, projection), and the final stretch.  The buffer contents at each segment boundary are a fold from the
  launch memory: a stretch applies its operations in order, a region overwrites its output array with what its grid
  points write back and leaves every other buffer alone.  Every weakly fair execution terminates in a state whose
  unscoped buffers hold the last boundary's contents; read at the result buffer this gives the result as that fold,
  and read at the six arguments it gives them back unchanged.
-/
import proofs.«179904_j90099823935520_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents (the fold `W7` of the launch memory through the seven segments) and the arguments as launched. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.KernelRun

end
-- ==== Proof.Region1.lean ====
/-
  Region 1 (the linear kernel): over a grid of 25 points, point t loads rows 4000·t … 4000·t + 3999 of the node
  features and the whole 128 × 128 weight, multiplies them into a zero accumulator, and writes the 4000 × 128 product
  back to the same rows of the output.  The 25 row blocks tile the 100000 rows, so the output array ends holding the
  dense product  (x · W)(n, j) = Σ_k x(n, k) · W(k, j)  of whatever arrays the region finds at entry.
  (The roundings to the 16-bit format around the product are the identity on extended reals.)
-/
import proofs.«179904_j90099823935520_2_alg».proof.Proof.Gen.KernelIdeal.Frame
import proofs.«179904_j90099823935520_2_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.Gcn.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The matrix product's operand indices -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's stored value at row p, column q of the block: the sum over k of (loaded rows)(p, k) · (loaded weight)(k, q). -/
theorem pay_apply (x0 : FVec Ideal S4000x128 .f32) (x1 : FVec Ideal S128x128 .f32) (p : Fin 4000) (q : Fin 128) :
    k0_pay1 (F := Ideal) x0 x1 (ix2 p q) = ∑ k : Fin 128, x0 (ix2 p k) * x1 (ix2 k q) := by
  unfold k0_pay1
  refine (Ideal.matmul_constant_zero_apply dot_S4000x128_S128x128_S4000x128_1_0_0_1_n_n none
    (truncf (F := Ideal) .bf16 x0 _) (truncf (F := Ideal) .bf16 x1 _) (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_0 _ _
    | ⟨1, _⟩ => exact (lhs_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  all_goals rfl

/-! ## From the blocks to the array -/

section
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the feature window and the output window sit at row block t, column block 0;
    the weight window at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's feature block is row 4000·t + p of the feature array. -/
theorem read_x (c : Dev nD) (t : Fin cfg0.N) (p : Fin 4000) (k : Fin 128) (n : Fin 100000) (hn : n.val = t.val * 4000 + p.val) :
    iblk0 V c 0 t (ix2 p k) = V c main_arg0 (ix2 n k) := by
  obtain ⟨e0, e1, e2, e3, e4, e5⟩ := index_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 4000 + 1 * p.val = n.val; omega
  | ⟨1, _⟩ => show win0_0.index t (1 : Fin 2) * 128 + 1 * k.val = k.val; omega

/-- Every point's weight block is the whole weight array. -/
theorem read_w (c : Dev nD) (t : Fin cfg0.N) (k : Fin 128) (q : Fin 128) :
    iblk0 V c 1 t (ix2 k q) = V c main_arg2 (ix2 k q) := by
  obtain ⟨e0, e1, e2, e3, e4, e5⟩ := index_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of the dense product of the feature and weight arrays found at entry. -/
theorem flushed_eq (c : Dev nD) (t : Fin cfg0.N) :
    (dat0 V c).flushed 2 t = ((cfg0.win 2).blk t).view.read (Elt Ideal) (denseProduct (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨e0, e1, e2, e3, e4, e5⟩ := index_facts t
  funext j
  obtain ⟨p, q, rfl⟩ : ∃ (p : Fin 4000) (q : Fin 128), j = ix2 p q := ⟨j 0, j 1, eq_ix2 j⟩
  have ht : t.val < 25 := lt_of_lt_of_eq t.isLt N_0
  have hrow : (((cfg0.win 2).blk t).view.emb (ix2 p q)) = ix2 (⟨t.val * 4000 + p.val, by omega⟩ : Fin 100000) q := by
    funext a; apply Fin.ext
    match a with
    | ⟨0, _⟩ => show win0_2.index t (0 : Fin 2) * 4000 + 1 * p.val = t.val * 4000 + p.val; omega
    | ⟨1, _⟩ => show win0_2.index t (1 : Fin 2) * 128 + 1 * q.val = q.val; omega
  show k0_pay1 (F := Ideal) (iblk0 V c 0 t) (iblk0 V c 1 t) (ix2 p q) = denseProduct (V c main_arg0) (V c main_arg2) (((cfg0.win 2).blk t).view.emb (ix2 p q))
  rw [hrow]
  refine (pay_apply (iblk0 V c 0 t) (iblk0 V c 1 t) p q).trans ?_
  unfold denseProduct
  refine Finset.sum_congr rfl fun k _ => ?_
  rw [read_x V c t p k ⟨t.val * 4000 + p.val, by omega⟩ rfl, read_w V c t k q]

/-- An index of the output array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Every row of the output lies in the block of the point numbered (row / 4000). -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_2 _, ?_⟩
  rw [mem_blk]
  obtain ⟨e0, e1, e2, e3, e4, e5⟩ := index_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 128 ≤ (i 1).val ∧ (i 1).val < win0_2.index _ (1 : Fin 2) * 128 + 128
    rw [e5]; omega

/-- After the region its output array is the dense product of the feature and weight arrays it found at entry. -/
theorem final (c : Dev nD) :
    (dat0 V c).arrAt 2 cfg0.N = denseProduct (V c main_arg0) (V c main_arg2) :=
  (dat0 V c).arrAt_eq_of_cover 2 (denseProduct (V c main_arg0) (V c main_arg2)) (fun t _ => flushed_eq V c t) cover

end

end Cert.Gcn.Region1

end
-- ==== Proof.Region2.lean ====
/-
  Region 2 (bias, relu and the rank-one projection): over a grid of 25 points, point t loads rows 4000·t … 4000·t + 3999
  of the aggregated features a, the whole bias b and the whole weight column w, and writes back, for each loaded row n,
      Σ_d max(a(n, d) + b(d), 0) · w(d)
  to row n of the 100000 × 1 output.  The 25 row blocks tile the rows, so the output array ends holding that sum, row by
  row, of whatever arrays the region finds at entry.
-/
import proofs.«179904_j90099823935520_2_alg».proof.Proof.Gen.KernelIdeal.Frame
import proofs.«179904_j90099823935520_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A vector over the rows cast to a one-column matrix reads, at (p, u), the vector at p. -/
theorem column_cast_apply (v : FVec Ideal S4000 .f32) (h : S4000.ShapeCasts S4000x1) (p : Fin 4000) (u : Fin 1) :
    shapeCast S4000x1 v h (ix2 p u) = v (ix1 p) :=
  shapeCast_apply v h (ix2 p u) (ix1 p) (by
    have hu : u.val = 0 := by omega
    rw [Shape.rowMajor_val_two, Shape.rowMajor_val_one]
    show p.val = p.val * 1 + u.val
    omega)

/-- A 128-vector laid out as one row and repeated down 4000 rows reads, at (p, d), the vector at d. -/
theorem row_repeat_apply (v : FVec Ideal S128 .f32) (h : S128.ShapeCasts S1x128) (hb : S1x128.Broadcasts S4000x128)
    (p : Fin 4000) (d : Fin 128) :
    broadcastTo S4000x128 (shapeCast S1x128 v h) hb (ix2 p d) = v (ix1 d) :=
  (broadcastTo_1b_ab_apply (shapeCast S1x128 v h) hb p d).trans (shapeCast_a_1a_apply v h 0 d)

/-- The body's stored value at row p of the block: the sum over d of max(a(p, d) + b(d), 0) · w(d). -/
theorem pay_apply (x0 : FVec Ideal S4000x128 .f32) (x1 : FVec Ideal S128 .f32) (x2 : FVec Ideal S128 .f32) (p : Fin 4000) (u : Fin 1) :
    k1_pay1 (F := Ideal) x0 x1 x2 (ix2 p u)
      = ∑ d : Fin 128, max (x0 (ix2 p d) + x1 (ix1 d)) (Ideal.ofBits .f32 0x00000000#32) * x2 (ix1 d) := by
  unfold k1_pay1
  refine (column_cast_apply _ _ p u).trans ?_
  refine (Ideal.multiReduction_add_single _ 0x00000000#32 _ _ _ (ix1 p)).trans ?_
  show (∑ d : Fin 128, _) = _
  refine Finset.sum_congr rfl fun (d : Fin 128) _ => ?_
  have hl : Facts₀.reduces_S4000x128_S4000.lift (ix1 p) d = ix2 p d := funext fun a => Fin.ext (by
    match a with
    | ⟨0, _⟩ => rfl
    | ⟨1, _⟩ => rfl)
  rw [hl, mulf_apply, maximumf_apply, addf_apply, shapeCast_self, shapeCast_self, row_repeat_apply, row_repeat_apply]
  all_goals rfl

/-! ## From the blocks to the array -/

section
variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The printed index maps over the grid: the feature window and the output window sit at row block t, column block 0;
    the bias and the weight column at block 0. -/
theorem index_facts : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- Row p of point t's feature block is row 4000·t + p of the aggregated feature array. -/
theorem read_a (c : Dev nD) (t : Fin cfg1.N) (p : Fin 4000) (d : Fin 128) (n : Fin 100000) (hn : n.val = t.val * 4000 + p.val) :
    iblk1 V c 0 t (ix2 p d) = V c main_v46 (ix2 n d) := by
  obtain ⟨e0, e1, e2, e3, e4, e5⟩ := index_facts t
  show V c main_v46 (((cfg1.win 0).blk t).view.emb (ix2 p d)) = V c main_v46 (ix2 n d)
  refine congrArg (V c main_v46) (funext fun a => Fin.ext ?_)
  match a with
  | ⟨0, _⟩ => show win1_0.index t (0 : Fin 2) * 4000 + 1 * p.val = n.val; omega
  | ⟨1, _⟩ => show win1_0.index t (1 : Fin 2) * 128 + 1 * d.val = d.val; omega

/-- Every point's bias block is the whole bias. -/
theorem read_b (c : Dev nD) (t : Fin cfg1.N) (d : Fin 128) :
    iblk1 V c 1 t (ix1 d) = V c main_arg3 (ix1 d) := by
  obtain ⟨e0, e1, e2, e3, e4, e5⟩ := index_facts t
  show V c main_arg3 (((cfg1.win 1).blk t).view.emb (ix1 d)) = V c main_arg3 (ix1 d)
  refine congrArg (V c main_arg3) (funext fun a => Fin.ext ?_)
  match a with
  | ⟨0, _⟩ => show win1_1.index t (0 : Fin 1) * 128 + 1 * d.val = d.val; omega

/-- Every point's weight block is the whole weight column. -/
theorem read_w (c : Dev nD) (t : Fin cfg1.N) (d : Fin 128) :
    iblk1 V c 2 t (ix1 d) = V c main_v47 (ix1 d) := by
  obtain ⟨e0, e1, e2, e3, e4, e5⟩ := index_facts t
  show V c main_v47 (((cfg1.win 2).blk t).view.emb (ix1 d)) = V c main_v47 (ix1 d)
  refine congrArg (V c main_v47) (funext fun a => Fin.ext ?_)
  match a with
  | ⟨0, _⟩ => show win1_2.index t (0 : Fin 1) * 128 + 1 * d.val = d.val; omega

/-- What point t writes back is block t of the projected relu of the arrays found at entry. -/
theorem flushed_eq (c : Dev nD) (t : Fin cfg1.N) :
    (dat1 V c).flushed 3 t
      = ((cfg1.win 3).blk t).view.read (Elt Ideal) (reluProject (V c main_v46) (V c main_arg3) (V c main_v47)) := by
  show (cfg1.win 3).cut (grid1.coords t) ((dat1 V c).after 3 t) = _
  rw [after1_3]
  unfold out1_3
  rw [View.canon_unit_zero zero_offsets2]
  simp only [View.ld_unit_zero (S := S4000x128) zero_offsets2, View.ld_unit_zero (S := S128) zero_offsets1]
  obtain ⟨e0, e1, e2, e3, e4, e5⟩ := index_facts t
  funext j
  obtain ⟨p, u, rfl⟩ : ∃ (p : Fin 4000) (u : Fin 1), j = ix2 p u := ⟨j 0, j 1, eq_ix2 j⟩
  have ht : t.val < 25 := lt_of_lt_of_eq t.isLt N_1
  have hu : u.val = 0 := by omega
  have hrow : (((cfg1.win 3).blk t).view.emb (ix2 p u)) = ix2 (⟨t.val * 4000 + p.val, by omega⟩ : Fin 100000) (0 : Fin 1) := by
    funext a; apply Fin.ext
    match a with
    | ⟨0, _⟩ => show win1_3.index t (0 : Fin 2) * 4000 + 1 * p.val = t.val * 4000 + p.val; omega
    | ⟨1, _⟩ => show win1_3.index t (1 : Fin 2) * 1 + 1 * u.val = 0; omega
  show k1_pay1 (F := Ideal) (iblk1 V c 0 t) (iblk1 V c 1 t) (iblk1 V c 2 t) (ix2 p u)
    = reluProject (V c main_v46) (V c main_arg3) (V c main_v47) (((cfg1.win 3).blk t).view.emb (ix2 p u))
  rw [hrow]
  refine (pay_apply (iblk1 V c 0 t) (iblk1 V c 1 t) (iblk1 V c 2 t) p u).trans ?_
  unfold reluProject
  refine Finset.sum_congr rfl fun d _ => ?_
  rw [read_a V c t p d ⟨t.val * 4000 + p.val, by omega⟩ rfl, read_b V c t d, read_w V c t d]

/-- An index of the output array is in point t's block iff each coordinate is in the block's range on its axis. -/
theorem mem_blk (t : Fin cfg1.N) (i : S100000x1.Idx) :
    i ∈ ((cfg1.win 3).blk t).view.set ↔ ∀ a : Fin 2, win1_3.index t a * S4000x1.size a ≤ (i a).val ∧ (i a).val < win1_3.index t a * S4000x1.size a + S4000x1.size a := by
  show i ∈ ((View.whole main_v48).slice (win1_3.rect t)).set ↔ _
  rw [View.set_slice_whole, Rect.mem_set_unit]
  exact Iff.rfl

/-- Every row of the output lies in the block of the point numbered (row / 4000). -/
theorem cover (i : S100000x1.Idx) :
    ∃ t : Fin cfg1.N, (cfg1.win 3).flush t = true ∧ i ∈ ((cfg1.win 3).blk t).view.set := by
  have hi0 : (i 0).val < 100000 := (i 0).isLt
  have hi1 : (i 1).val < 1 := (i 1).isLt
  have hN : cfg1.N = 25 := N_1
  refine ⟨⟨(i 0).val / 4000, by rw [hN]; omega⟩, flush1_3 _, ?_⟩
  rw [mem_blk]
  obtain ⟨e0, e1, e2, e3, e4, e5⟩ := index_facts ⟨(i 0).val / 4000, by rw [hN]; omega⟩
  intro a
  match a with
  | ⟨0, _⟩ =>
    show win1_3.index _ (0 : Fin 2) * 4000 ≤ (i 0).val ∧ (i 0).val < win1_3.index _ (0 : Fin 2) * 4000 + 4000
    rw [e4]; show (i 0).val / 4000 * 4000 ≤ (i 0).val ∧ (i 0).val < (i 0).val / 4000 * 4000 + 4000; omega
  | ⟨1, _⟩ =>
    show win1_3.index _ (1 : Fin 2) * 1 ≤ (i 1).val ∧ (i 1).val < win1_3.index _ (1 : Fin 2) * 1 + 1
    rw [e5]; omega

/-- After the region its output array is the projected relu of the arrays it found at entry. -/
theorem final (c : Dev nD) :
    (dat1 V c).arrAt 3 cfg1.N = reluProject (V c main_v46) (V c main_arg3) (V c main_v47) :=
  (dat1 V c).arrAt_eq_of_cover 3 (reluProject (V c main_v46) (V c main_arg3) (V c main_v47)) (fun t _ => flushed_eq V c t) cover

end

end Cert.Gcn.Region2

end
-- ==== Proof.KernelValue.lean ====
/-
  The idealized kernel's result as a function of its arguments.

  The run ends with the result buffer at the last of eight boundary contents W0 … W7 (the launch memory, then one
  boundary after each of the program's seven segments).  This module reads those folds one segment at a time:
    * the first stretch builds the two endpoint lists and the degree's two uses, the outlined selection then gives
      deg^(-1/2), and the third stretch the edge weights;
    * region 1 leaves the dense product x · W1 in its output and every other buffer alone;
    * the next stretch aggregates that product along the edges and reads the column W2 as a vector;
    * region 2 leaves relu(a + b1) projected on W2 in its output;
    * the last stretch aggregates that column along the edges and adds b2.
  At each step the previous boundary's buffers are replaced by what the earlier steps proved them to be, so the
  composite of host operations met is always one stretch long, and it is, by definition, one of the named pieces.
-/
import proofs.«179904_j90099823935520_2_alg».proof.Proof.Gen.KernelIdeal.Frame
import proofs.«179904_j90099823935520_2_alg».proof.Proof.GcnSpec
import proofs.«179904_j90099823935520_2_alg».proof.Proof.Region1
import proofs.«179904_j90099823935520_2_alg».proof.Proof.Region2
import Idealize.ShloMosaic.Lib.StableHlo.Run

set_option maxRecDepth 16384

noncomputable section

namespace Cert.Gcn.KernelValue

open Cert.KernelIdeal Cert.KernelIdeal.Gen
open Idealize.ShloMosaic Idealize.ShloMosaic.TcCoe Idealize.SL.Sem Idealize.ShloMosaic.StableHlo

/-- The rewriting loop that reads each operation's result at its own buffer and any other buffer as it was. -/
macro "finish_results" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (ρ : Dev nD → PrngReg)

/-! ## After the first stretch: the endpoint lists and the degree's two uses -/

theorem W1_v3 (c : Dev nD) : W1 m ρ c (Proc.devRef .tc main_v3) = srcs (m ((c : Thread nD τ).loc main_arg1)) := by
  show StableHlo.after hostOps0 (W0 m ρ c) (Proc.devRef .tc main_v3) = _
  dsimp only [hostOps0]
  after_results_simp
  finish_results
  rfl

theorem W1_v6 (c : Dev nD) : W1 m ρ c (Proc.devRef .tc main_v6) = dsts (m ((c : Thread nD τ).loc main_arg1)) := by
  show StableHlo.after hostOps0 (W0 m ρ c) (Proc.devRef .tc main_v6) = _
  dsimp only [hostOps0]
  after_results_simp
  finish_results
  rfl

/-- Where the degree is positive. -/
theorem W1_v12 (c : Dev nD) : W1 m ρ c (Proc.devRef .tc main_v12)
    = cmpf (F := Ideal) (φ := .f32) .ogt (degree (m ((c : Thread nD τ).loc main_arg1)))
        (broadcastInDim S100000 ![] Facts₀.bcast_S_S100000 (constant (F := Ideal) S_ .f32 0x00000000#32)) := by
  show StableHlo.after hostOps0 (W0 m ρ c) (Proc.devRef .tc main_v12) = _
  dsimp only [hostOps0]
  after_results_simp
  finish_results
  rfl

/-- The inverse square root of the degree raised to at least one. -/
theorem W1_v15 (c : Dev nD) : W1 m ρ c (Proc.devRef .tc main_v15)
    = Host.rsqrt (F := Ideal) (φ := .f32) (maximumf (F := Ideal) (φ := .f32) (degree (m ((c : Thread nD τ).loc main_arg1)))
        (broadcastInDim S100000 ![] Facts₀.bcast_S_S100000 (constant (F := Ideal) S_ .f32 0x3F800000#32))) := by
  show StableHlo.after hostOps0 (W0 m ρ c) (Proc.devRef .tc main_v15) = _
  dsimp only [hostOps0]
  after_results_simp
  finish_results
  rfl

theorem W1_cst_3 (c : Dev nD) : W1 m ρ c (Proc.devRef .tc main_cst_3) = constant (F := Ideal) S_ .f32 0x00000000#32 := by
  show StableHlo.after hostOps0 (W0 m ρ c) (Proc.devRef .tc main_cst_3) = _
  dsimp only [hostOps0]
  after_results_simp

/-! ## The outlined selection's typed references: contents pass through them unchanged -/

theorem toBuf_v16 (h1 : main_v16.ty = (⟨S100000, .f32⟩ : BufTy)) (h2 : main_v16.space ≠ .host) (h3 : main_v16.isScoped = false)
    (v : (⟨S100000, .f32⟩ : BufTy).Contents (Elt Ideal)) :
    (TRef.of (sig := sig) (T := ⟨S100000, .f32⟩) main_v16 h1 h2 h3).toBuf v = v := rfl
theorem ofBuf_v12 (h1 : main_v12.ty = (⟨S100000, .i1⟩ : BufTy)) (h2 : main_v12.space ≠ .host) (h3 : main_v12.isScoped = false)
    (v : (⟨S100000, .i1⟩ : BufTy).Contents (Elt Ideal)) :
    (TRef.of (sig := sig) (T := ⟨S100000, .i1⟩) main_v12 h1 h2 h3).ofBuf v = v := rfl
theorem ofBuf_v15 (h1 : main_v15.ty = (⟨S100000, .f32⟩ : BufTy)) (h2 : main_v15.space ≠ .host) (h3 : main_v15.isScoped = false)
    (v : (⟨S100000, .f32⟩ : BufTy).Contents (Elt Ideal)) :
    (TRef.of (sig := sig) (T := ⟨S100000, .f32⟩) main_v15 h1 h2 h3).ofBuf v = v := rfl
theorem toBuf_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) :
    (TRef.of (sig := sig) (T := ⟨S100000, .f32⟩) main_call0_v1 h1 h2 h3).toBuf v = v := rfl
theorem ofBuf_call0_v1 (h1 : main_call0_v1.ty = (⟨S100000, .f32⟩ : BufTy)) (h2 : main_call0_v1.space ≠ .host) (h3 : main_call0_v1.isScoped = false)
    (v : (⟨S100000, .f32⟩ : BufTy).Contents (Elt Ideal)) :
    (TRef.of (sig := sig) (T := ⟨S100000, .f32⟩) main_call0_v1 h1 h2 h3).ofBuf v = v := rfl
theorem toBuf_call0_v0 (h1 : main_call0_v0.ty = (⟨S_, .f32⟩ : BufTy)) (h2 : main_call0_v0.space ≠ .host) (h3 : main_call0_v0.isScoped = false)
    (v : (⟨S_, .f32⟩ : BufTy).Contents (Elt Ideal)) :
    (TRef.of (sig := sig) (T := ⟨S_, .f32⟩) main_call0_v0 h1 h2 h3).toBuf v = v := rfl
theorem ofBuf_call0_v0 (h1 : main_call0_v0.ty = (⟨S_, .f32⟩ : BufTy)) (h2 : main_call0_v0.space ≠ .host) (h3 : main_call0_v0.isScoped = false)
    (v : (⟨S_, .f32⟩ : BufTy).Contents (Elt Ideal)) :
    (TRef.of (sig := sig) (T := ⟨S_, .f32⟩) main_call0_v0 h1 h2 h3).ofBuf v = v := rfl
theorem ofBuf_cst_3 (h1 : main_cst_3.ty = (⟨S_, .f32⟩ : BufTy)) (h2 : main_cst_3.space ≠ .host) (h3 : main_cst_3.isScoped = false)
    (v : (⟨S_, .f32⟩ : BufTy).Contents (Elt Ideal)) :
    (TRef.of (sig := sig) (T := ⟨S_, .f32⟩) main_cst_3 h1 h2 h3).ofBuf v = v := rfl

/-! ## After the outlined selection: deg^(-1/2) -/

theorem W2_v16 (c : Dev nD) : W2 m ρ c (Proc.devRef .tc main_v16) = invSqrtDeg (m ((c : Thread nD τ).loc main_arg1)) := by
  have h12 := W1_v12 m ρ c
  have h15 := W1_v15 m ρ c
  have hc3 := W1_cst_3 m ρ c
  show StableHlo.after hostOps0_1 (W1 m ρ c) (Proc.devRef .tc main_v16) = _
  generalize W1 m ρ c = V at h12 h15 hc3 ⊢
  dsimp only [hostOps0_1]
  after_results_simp
  rw [h12, h15, hc3]
  rw [ofBuf_v12 rfl (by decide) rfl, ofBuf_v15 rfl (by decide) rfl, ofBuf_cst_3 rfl (by decide) rfl, toBuf_call0_v0 rfl (by decide) rfl, ofBuf_call0_v0 rfl (by decide) rfl,
    toBuf_call0_v1 rfl (by decide) rfl, ofBuf_call0_v1 rfl (by decide) rfl, toBuf_v16 rfl (by decide) rfl]
  rfl

theorem W2_v3 (c : Dev nD) : W2 m ρ c (Proc.devRef .tc main_v3) = srcs (m ((c : Thread nD τ).loc main_arg1)) := by
  have h3 := W1_v3 m ρ c
  show StableHlo.after hostOps0_1 (W1 m ρ c) (Proc.devRef .tc main_v3) = _
  generalize W1 m ρ c = V at h3 ⊢
  dsimp only [hostOps0_1]
  after_results_simp
  exact h3

theorem W2_v6 (c : Dev nD) : W2 m ρ c (Proc.devRef .tc main_v6) = dsts (m ((c : Thread nD τ).loc main_arg1)) := by
  have h6 := W1_v6 m ρ c
  show StableHlo.after hostOps0_1 (W1 m ρ c) (Proc.devRef .tc main_v6) = _
  generalize W1 m ρ c = V at h6 ⊢
  dsimp only [hostOps0_1]
  after_results_simp
  exact h6

/-! ## At region 1's entry: the edge weights, the endpoint lists, and the arguments as launched -/

theorem W3_v31 (c : Dev nD) : W3 m ρ c (Proc.devRef .tc main_v31) = edgeWeight (m ((c : Thread nD τ).loc main_arg1)) := by
  have h16 := W2_v16 m ρ c
  have h3 := W2_v3 m ρ c
  have h6 := W2_v6 m ρ c
  show StableHlo.after hostOps0_2 (W2 m ρ c) (Proc.devRef .tc main_v31) = _
  generalize W2 m ρ c = V at h16 h3 h6 ⊢
  dsimp only [hostOps0_2]
  after_results_simp
  rw [h16, h3, h6]
  rfl

theorem W3_v3 (c : Dev nD) : W3 m ρ c (Proc.devRef .tc main_v3) = srcs (m ((c : Thread nD τ).loc main_arg1)) := by
  have h3 := W2_v3 m ρ c
  show StableHlo.after hostOps0_2 (W2 m ρ c) (Proc.devRef .tc main_v3) = _
  generalize W2 m ρ c = V at h3 ⊢
  dsimp only [hostOps0_2]
  after_results_simp
  exact h3

theorem W3_v6 (c : Dev nD) : W3 m ρ c (Proc.devRef .tc main_v6) = dsts (m ((c : Thread nD τ).loc main_arg1)) := by
  have h6 := W2_v6 m ρ c
  show StableHlo.after hostOps0_2 (W2 m ρ c) (Proc.devRef .tc main_v6) = _
  generalize W2 m ρ c = V at h6 ⊢
  dsimp only [hostOps0_2]
  after_results_simp
  exact h6

/-- A buffer none of the first three stretches writes holds its launch contents at region 1's entry. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp

/-! ## At region 1's exit: the dense product in its output, everything else as entered -/

theorem W4_v32 (c : Dev nD) : W4 m ρ c (Proc.devRef .tc main_v32)
    = denseProduct (m ((c : Thread nD τ).loc main_arg0)) (m ((c : Thread nD τ).loc main_arg2)) := by
  refine (W4_arr m ρ c 2).trans ((Region1.final (V3 m ρ) c).trans ?_)
  show denseProduct (W3 m ρ c (Proc.devRef .tc main_arg0)) (W3 m ρ c (Proc.devRef .tc main_arg2)) = _
  rw [W3_arg0, W3_arg2]

theorem W4_v3 (c : Dev nD) : W4 m ρ c (Proc.devRef .tc main_v3) = srcs (m ((c : Thread nD τ).loc main_arg1)) :=
  (W4_of_ne m ρ c main_v3 (by decide)).trans (W3_v3 m ρ c)
theorem W4_v6 (c : Dev nD) : W4 m ρ c (Proc.devRef .tc main_v6) = dsts (m ((c : Thread nD τ).loc main_arg1)) :=
  (W4_of_ne m ρ c main_v6 (by decide)).trans (W3_v6 m ρ c)
theorem W4_v31 (c : Dev nD) : W4 m ρ c (Proc.devRef .tc main_v31) = edgeWeight (m ((c : Thread nD τ).loc main_arg1)) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## At region 2's entry: the first layer's aggregation, the bias, and the column W2 as a vector -/

theorem W5_v46 (c : Dev nD) : W5 m ρ c (Proc.devRef .tc main_v46)
    = aggregate128 (m ((c : Thread nD τ).loc main_arg1))
        (denseProduct (m ((c : Thread nD τ).loc main_arg0)) (m ((c : Thread nD τ).loc main_arg2))) := by
  have h32 := W4_v32 m ρ c
  have h3 := W4_v3 m ρ c
  have h6 := W4_v6 m ρ c
  have h31 := W4_v31 m ρ c
  show StableHlo.after hostOps1 (W4 m ρ c) (Proc.devRef .tc main_v46) = _
  generalize W4 m ρ c = V at h32 h3 h6 h31 ⊢
  dsimp only [hostOps1]
  after_results_simp
  rw [h32, h3, h6, h31]
  rfl

theorem W5_v47 (c : Dev nD) : W5 m ρ c (Proc.devRef .tc main_v47)
    = shapeCast S128 (m ((c : Thread nD τ).loc main_arg4)) Facts₀.shapeCasts_S128x1_S128 := by
  have h4 := W4_arg4 m ρ c
  show StableHlo.after hostOps1 (W4 m ρ c) (Proc.devRef .tc main_v47) = _
  generalize W4 m ρ c = V at h4 ⊢
  dsimp only [hostOps1]
  after_results_simp
  rw [h4]
  rfl

theorem W5_arg3 (c : Dev nD) : W5 m ρ c (Proc.devRef .tc main_arg3) = m ((c : Thread nD τ).loc main_arg3) := by
  have h := W4_arg3 m ρ c
  show StableHlo.after hostOps1 (W4 m ρ c) (Proc.devRef .tc main_arg3) = _
  generalize W4 m ρ c = V at h ⊢
  dsimp only [hostOps1]
  after_results_simp
  exact h
theorem W5_arg5 (c : Dev nD) : W5 m ρ c (Proc.devRef .tc main_arg5) = m ((c : Thread nD τ).loc main_arg5) := by
  have h := W4_arg5 m ρ c
  show StableHlo.after hostOps1 (W4 m ρ c) (Proc.devRef .tc main_arg5) = _
  generalize W4 m ρ c = V at h ⊢
  dsimp only [hostOps1]
  after_results_simp
  exact h
theorem W5_v3 (c : Dev nD) : W5 m ρ c (Proc.devRef .tc main_v3) = srcs (m ((c : Thread nD τ).loc main_arg1)) := by
  have h := W4_v3 m ρ c
  show StableHlo.after hostOps1 (W4 m ρ c) (Proc.devRef .tc main_v3) = _
  generalize W4 m ρ c = V at h ⊢
  dsimp only [hostOps1]
  after_results_simp
  exact h
theorem W5_v6 (c : Dev nD) : W5 m ρ c (Proc.devRef .tc main_v6) = dsts (m ((c : Thread nD τ).loc main_arg1)) := by
  have h := W4_v6 m ρ c
  show StableHlo.after hostOps1 (W4 m ρ c) (Proc.devRef .tc main_v6) = _
  generalize W4 m ρ c = V at h ⊢
  dsimp only [hostOps1]
  after_results_simp
  exact h
theorem W5_v31 (c : Dev nD) : W5 m ρ c (Proc.devRef .tc main_v31) = edgeWeight (m ((c : Thread nD τ).loc main_arg1)) := by
  have h := W4_v31 m ρ c
  show StableHlo.after hostOps1 (W4 m ρ c) (Proc.devRef .tc main_v31) = _
  generalize W4 m ρ c = V at h ⊢
  dsimp only [hostOps1]
  after_results_simp
  exact h

/-! ## At region 2's exit: the projected relu in its output, everything else as entered -/

theorem W6_v48 (c : Dev nD) : W6 m ρ c (Proc.devRef .tc main_v48)
    = reluProject
        (aggregate128 (m ((c : Thread nD τ).loc main_arg1))
          (denseProduct (m ((c : Thread nD τ).loc main_arg0)) (m ((c : Thread nD τ).loc main_arg2))))
        (m ((c : Thread nD τ).loc main_arg3))
        (shapeCast S128 (m ((c : Thread nD τ).loc main_arg4)) Facts₀.shapeCasts_S128x1_S128) := by
  refine (W6_arr m ρ c 3).trans ((Region2.final (V5 m ρ) c).trans ?_)
  show reluProject (W5 m ρ c (Proc.devRef .tc main_v46)) (W5 m ρ c (Proc.devRef .tc main_arg3)) (W5 m ρ c (Proc.devRef .tc main_v47)) = _
  rw [W5_v46, W5_arg3, W5_v47]

theorem W6_v3 (c : Dev nD) : W6 m ρ c (Proc.devRef .tc main_v3) = srcs (m ((c : Thread nD τ).loc main_arg1)) :=
  (W6_of_ne m ρ c main_v3 (by decide)).trans (W5_v3 m ρ c)
theorem W6_v6 (c : Dev nD) : W6 m ρ c (Proc.devRef .tc main_v6) = dsts (m ((c : Thread nD τ).loc main_arg1)) :=
  (W6_of_ne m ρ c main_v6 (by decide)).trans (W5_v6 m ρ c)
theorem W6_v31 (c : Dev nD) : W6 m ρ c (Proc.devRef .tc main_v31) = edgeWeight (m ((c : Thread nD τ).loc main_arg1)) :=
  (W6_of_ne m ρ c main_v31 (by decide)).trans (W5_v31 m ρ c)
theorem W6_arg5 (c : Dev nD) : W6 m ρ c (Proc.devRef .tc main_arg5) = m ((c : Thread nD τ).loc main_arg5) :=
  (W6_of_ne m ρ c main_arg5 (by decide)).trans (W5_arg5 m ρ c)

/-! ## The result -/

/-- The result buffer's final contents are the network function of the six launch arrays. -/
theorem result_eq (c : Dev nD) : W7 m ρ c (Proc.devRef .tc main_v64)
    = network (m ((c : Thread nD τ).loc main_arg0)) (m ((c : Thread nD τ).loc main_arg1)) (m ((c : Thread nD τ).loc main_arg2))
        (m ((c : Thread nD τ).loc main_arg3))
        (shapeCast S128 (m ((c : Thread nD τ).loc main_arg4)) Facts₀.shapeCasts_S128x1_S128)
        (m ((c : Thread nD τ).loc main_arg5)) := by
  have h48 := W6_v48 m ρ c
  have h3 := W6_v3 m ρ c
  have h6 := W6_v6 m ρ c
  have h31 := W6_v31 m ρ c
  have h5 := W6_arg5 m ρ c
  show StableHlo.after hostOps2 (W6 m ρ c) (Proc.devRef .tc main_v64) = _
  generalize W6 m ρ c = V at h48 h3 h6 h31 h5 ⊢
  dsimp only [hostOps2]
  after_results_simp
  rw [h48, h3, h6, h31, h5]
  rfl

end Cert.Gcn.KernelValue

end
-- ==== Proof.RefValue.lean ====
/-
  The reference computes the same network.

  Its result term is the composite of its host operations applied to the launch contents.  Folding the shared
  stretches into the named pieces (endpoint lists, edge weights, the two aggregations) leaves two dense stages spelt as
  host matrix products:  x · W1,  and  relu(a + b1) · W2  with relu(z) = max(z, 0) and the bias repeated down the rows.
  On extended reals a host matrix product is the plain sum over the contracted index, so the first is `denseProduct`
  and the second is `reluProject` against the column W2 read as a vector.
-/
import proofs.«179904_j90099823935520_2_alg».proof.Proof.RefRun
import proofs.«179904_j90099823935520_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.RefValue

open Idealize.ShloMosaic Idealize.ShloMosaic.TcCoe Idealize.SL.Sem Idealize.ShloMosaic.ValueIdx
open Cert.Gcn

/-! ## The first dense stage: x · W1 -/

theorem l1_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem l1_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem r1_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem r1_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of the features with the first weight is the dense product, entry by entry. -/
theorem dense1_eq (x : FArr Cert.KernelIdeal.S100000x128) (w : FArr Cert.KernelIdeal.S128x128) :
    Host.dotGeneral (F := Ideal) Cert.ReferenceIdeal.dot_S100000x128_S128x128_S100000x128_1_0_0_1_n_n none x w = denseProduct x w := by
  funext i
  obtain ⟨n, j, rfl⟩ : ∃ (n : Fin 100000) (j : Fin 128), i = ix2 n j := ⟨i 0, i 1, eq_ix2 i⟩
  simp only [Host.dotGeneral]
  rw [Ideal.dotGeneral_apply, ← Equiv.sum_comp (ValueIdx.contrEquiv1 Cert.ReferenceIdeal.dot_S100000x128_S128x128_S100000x128_1_0_0_1_n_n 128 rfl rfl).symm]
  unfold denseProduct
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n j) ((ValueIdx.contrEquiv1 Cert.ReferenceIdeal.dot_S100000x128_S128x128_S100000x128_1_0_0_1_n_n 128 rfl rfl).symm k) = ix2 n k := funext fun a => Fin.ext (by
    match a with
    | ⟨0, _⟩ => exact l1_0 _ _
    | ⟨1, _⟩ => exact (l1_1 _ _).trans hk)
  have er : Cert.ReferenceIdeal.dot_S100000x128_S128x128_S100000x128_1_0_0_1_n_n.rhsIdx (ix2 n j) ((ValueIdx.contrEquiv1 Cert.ReferenceIdeal.dot_S100000x128_S128x128_S100000x128_1_0_0_1_n_n 128 rfl rfl).symm k) = ix2 k j := funext fun a => Fin.ext (by
    match a with
    | ⟨0, _⟩ => exact (r1_0 _ _).trans hk
    | ⟨1, _⟩ => exact r1_1 _ _)
  rw [el, er]
  all_goals rfl

/-! ## The second dense stage: relu(a + b1) · W2 -/

theorem l2_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x1_S100000x1_1_0_0_1_n_n.lhsBatch by decide), dif_pos (show (0 : Fin Cert.ReferenceIdeal.S100000x128.rank) ∈ Cert.ReferenceIdeal.dot_S100000x128_S128x1_S100000x1_1_0_0_1_n_n.lhsNonContracting by decide)]
  rfl
theorem l2_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 1).val = (q ⟨0, by decide⟩).val :=
  Cert.ReferenceIdeal.dot_S100000x128_S128x1_S100000x1_1_0_0_1_n_n.lhsIdx_val_of_single rfl i q
theorem r2_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 0).val = (q ⟨0, by decide⟩).val :=
  Cert.ReferenceIdeal.dot_S100000x128_S128x1_S100000x1_1_0_0_1_n_n.rhsIdx_val_of_single rfl i q
theorem r2_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 1).val = (i 1).val := by
  unfold DotDims.rhsIdx
  rw [dif_neg (show ¬(1 : Fin Cert.ReferenceIdeal.S128x1.rank) ∈ Cert.ReferenceIdeal.dot_S100000x128_S128x1_S100000x1_1_0_0_1_n_n.rhsBatch by decide), dif_pos (show (1 : Fin Cert.ReferenceIdeal.S128x1.rank) ∈ Cert.ReferenceIdeal.dot_S100000x128_S128x1_S100000x1_1_0_0_1_n_n.rhsNonContracting by decide)]
  rfl

/-- The bias laid out as one row and repeated down the 100000 rows reads, at (n, d), the bias at d. -/
theorem bias_rows_apply (b : FArr Cert.KernelIdeal.S128) (n : Fin 100000) (d : Fin 128) :
    broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) (ix2 n d) = b (ix1 d) := by
  refine (broadcastInDim_apply _ _ _ (ix2 n d) (ix2 (0 : Fin 1) d) fun a => ?_).trans
    (broadcastInDim_apply _ _ b (ix2 (0 : Fin 1) d) (ix1 d) fun a => ?_)
  · match a with
    | ⟨0, _⟩ => rfl
    | ⟨1, _⟩ => show d.val = if (128 : Nat) = 1 then 0 else d.val; rw [if_neg (by decide)]
  · match a with
    | ⟨0, _⟩ => show d.val = if (128 : Nat) = 1 then 0 else d.val; rw [if_neg (by decide)]

/-- The column W2 read as a vector: entry d is W2(d, 0). -/
theorem column_as_vector_apply (w : FArr Cert.KernelIdeal.S128x1) (h : Cert.KernelIdeal.S128x1.ShapeCasts Cert.KernelIdeal.S128) (d : Fin 128) :
    shapeCast Cert.KernelIdeal.S128 w h (ix1 d) = w (ix2 d (0 : Fin 1)) :=
  shapeCast_apply w h (ix1 d) (ix2 d (0 : Fin 1)) (by
    rw [Shape.rowMajor_val_two, Shape.rowMajor_val_one]
    show d.val * 1 + 0 = d.val
    omega)

/-- The host's product of relu(a + b1) with the column W2 is the projected relu, row by row. -/
theorem dense2_eq (a : FArr Cert.KernelIdeal.S100000x128) (b : FArr Cert.KernelIdeal.S128) (w : FArr Cert.KernelIdeal.S128x1)
    (h : Cert.KernelIdeal.S128x1.ShapeCasts Cert.KernelIdeal.S128) :
    Host.dotGeneral (F := Ideal) Cert.ReferenceIdeal.dot_S100000x128_S128x1_S100000x1_1_0_0_1_n_n none
      (maximumf (F := Ideal) (φ := .f32)
        (addf (F := Ideal) (φ := .f32) a
          (broadcastInDim Cert.ReferenceIdeal.S100000x128 ![0, 1] Cert.ReferenceIdeal.Facts₀.bcast_S1x128_S100000x128_0_1
            (broadcastInDim Cert.ReferenceIdeal.S1x128 ![1] Cert.ReferenceIdeal.Facts₀.bcast_S128_S1x128_1 b)))
        (broadcastInDim Cert.ReferenceIdeal.S100000x128 ![] Cert.ReferenceIdeal.Facts₀.bcast_S_S100000x128 (constant (F := Ideal) Cert.ReferenceIdeal.S_ .f32 0x00000000#32)))
      w
    = reluProject a b (shapeCast Cert.KernelIdeal.S128 w h) := by
  funext i
  obtain ⟨n, u, rfl⟩ : ∃ (n : Fin 100000) (u : Fin 1), i = ix2 n u := ⟨i 0, i 1, eq_ix2 i⟩
  have hu : u = (0 : Fin 1) := Fin.ext (by omega)
  subst hu
  simp only [Host.dotGeneral]
  rw [Ideal.dotGeneral_apply, ← Equiv.sum_comp (ValueIdx.contrEquiv1 Cert.ReferenceIdeal.dot_S100000x128_S128x1_S100000x1_1_0_0_1_n_n 128 rfl rfl).symm]
  unfold reluProject
  refine Finset.sum_congr rfl fun k _ => ?_
  have hk := ValueIdx.contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 n (0 : Fin 1)) ((ValueIdx.contrEquiv1 Cert.ReferenceIdeal.dot_S100000x128_S128x1_S100000x1_1_0_0_1_n_n 128 rfl rfl).symm k) = ix2 n k := funext fun a => Fin.ext (by
    match a with
    | ⟨0, _⟩ => exact l2_0 _ _
    | ⟨1, _⟩ => exact (l2_1 _ _).trans hk)
  have er : Cert.ReferenceIdeal.dot_S100000x128_S128x1_S100000x1_1_0_0_1_n_n.rhsIdx (ix2 n (0 : Fin 1)) ((ValueIdx.contrEquiv1 Cert.ReferenceIdeal.dot_S100000x128_S128x1_S100000x1_1_0_0_1_n_n 128 rfl rfl).symm k) = ix2 k (0 : Fin 1) := funext fun a => Fin.ext (by
    match a with
    | ⟨0, _⟩ => exact (r2_0 _ _).trans hk
    | ⟨1, _⟩ => exact r2_1 _ _)
  rw [el, er, maximumf_apply, addf_apply, bias_rows_apply, column_as_vector_apply]
  all_goals rfl

/-! ## The reference's result -/

/-- The reference's result term is the network function of its launch arrays. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v66 (F := Ideal) m c
      = network (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (shapeCast Cert.KernelIdeal.S128 (m ((c.tc : Thread Cert.ReferenceIdeal.nD Cert.ReferenceIdeal.τ).loc Cert.ReferenceIdeal.main_arg4))
            Cert.KernelIdeal.Facts₀.shapeCasts_S128x1_S128)
          (m ((c.tc : Thread Cert.ReferenceIdeal.nD Cert.ReferenceIdeal.τ).loc Cert.ReferenceIdeal.main_arg5)) := by
  unfold network
  rw [← dense1_eq, ← dense2_eq]
  unfold Cert.ReferenceIdeal.ValueP.res_main_v66 aggregate1 aggregate128 edgeWeight invSqrtDeg degree srcs dsts wrapCol col
  rfl

end Cert.Gcn.RefValue

end
-- ==== Proof.lean ====
/-
  A two-layer graph convolution (N = 100000 nodes, 128 features, one output, 1600000 edges plus a self loop per node):
  the kernel program against its reference, on extended reals.

  Both programs build the same endpoint lists, degrees and edge weights with the same host operations, and both
  aggregate along the edges with the same gathers and scatter-adds.  They differ in the two dense stages only:
    * x · W1 — the kernel multiplies 25 row blocks of 4000 rows into a zero accumulator (through a 16-bit format, which
      is the identity on extended reals); the reference takes one host matrix product;
    * relu(a + b1) · W2 — the kernel adds the bias, takes the maximum with zero, scales by W2 read as a vector and sums
      along the 128 lanes, 4000 rows at a time; the reference repeats the bias down the rows, takes the maximum with
      zero and takes a host matrix product with the column W2.
  On extended reals each of the four is the same plain sum over 128 terms, in the same order of factors, so no
  distributivity or cancellation is used and the finiteness of the inputs is never needed.

  The three frames: the kernel's two are the generated frame theorems; the reference's is its run with the result
  dropped.  The idealization rewrote nothing, so `preserves` is trivial.  For `algebraic` both runs end with the
  result at ONE function, `Gcn.network`, of the six argument arrays (`Gcn.KernelValue.result_eq`,
  `Gcn.RefValue.result_eq`), and the arguments agree.
-/
import proofs.«179904_j90099823935520_2_alg».proof.Defs
import proofs.«179904_j90099823935520_2_alg».proof.Proof.Gen.Kernel
import proofs.«179904_j90099823935520_2_alg».proof.Proof.Gen.Kernel.Frame
import proofs.«179904_j90099823935520_2_alg».proof.Proof.Gen.KernelIdeal
import proofs.«179904_j90099823935520_2_alg».proof.Proof.Gen.KernelIdeal.Frame
import proofs.«179904_j90099823935520_2_alg».proof.Proof.Gen.ReferenceIdeal
import proofs.«179904_j90099823935520_2_alg».proof.Proof.Gen.Pre_finite_inputs
import proofs.«179904_j90099823935520_2_alg».proof.Proof.GcnSpec
import proofs.«179904_j90099823935520_2_alg».proof.Proof.KernelRun
import proofs.«179904_j90099823935520_2_alg».proof.Proof.KernelValue
import proofs.«179904_j90099823935520_2_alg».proof.Proof.RefRun
import proofs.«179904_j90099823935520_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at the network function of the argument arrays, which agree. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (shapeCast Cert.KernelIdeal.S128 (m ((c.tc : Thread Cert.KernelIdeal.nD Cert.KernelIdeal.τ).loc Cert.KernelIdeal.main_arg4))
        Cert.KernelIdeal.Facts₀.shapeCasts_S128x1_S128)
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result_eq m ρ c), (h c).2⟩)
      (Cert.Gcn.KernelRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.RefValue.result_eq m' c, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
